-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x256 : Shape := ⟨2, ![4096, 256]⟩
abbrev S256 : Shape := ⟨1, ![256]⟩
abbrev S256x512 : Shape := ⟨2, ![256, 512]⟩
abbrev S512 : Shape := ⟨1, ![512]⟩
abbrev S512x10 : Shape := ⟨2, ![512, 10]⟩
abbrev S10 : Shape := ⟨1, ![10]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S512 .f32) (main_arg5 : FVec F S512x10 .f32) (main_arg6 : FVec F S10 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x10 .f32 := Host.absf main_arg5
  let main_cst_8 : FVec F S_ .f32 := constant S_ .f32 0x7F800000#32
  let main_v25 : FVec F S512x10 .f32 := broadcastInDim S512x10 ![] bcast_S_S512x10 main_cst_8
  let main_v26 : IVec S512x10 1 := cmpf .olt main_v24 main_v25
  let main_c_9 : IVec S_ 1 := constantI S_ 1 1#1
  let main_v27 : IVec S_ 1 := (fun x v => Host.reduce IntOp.andi x v reducesTo_S512x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S16384x4096 .f32) (main_arg1 : FVec F S4096x256 .f32) (main_arg2 : FVec F S256 .f32) (main_arg3 : FVec F S256x512 .f32) (main_arg4 : FVec F S512 .f32) (main_arg5 : FVec F S512x10 .f32) (main_arg6 : FVec F S10 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Kernel.lean ====
abbrev S16384x4096 : Shape := ⟨2, ![16384, 4096]⟩
abbrev S4096x256 : Shape := ⟨2, ![4096, 256]⟩
abbrev S256 : Shape := ⟨1, ![256]⟩
abbrev S256x512 : Shape := ⟨2, ![256, 512]⟩
abbrev S512 : Shape := ⟨1, ![512]⟩
abbrev S512x10 : Shape := ⟨2, ![512, 10]⟩
abbrev S10 : Shape := ⟨1, ![10]⟩
abbrev S2048x256 : Shape := ⟨2, ![2048, 256]⟩
abbrev S_ : Shape := ⟨0, ![]⟩
abbrev S2048x1x256 : Shape := ⟨3, ![2048, 1, 256]⟩
abbrev S2048x2x256 : Shape := ⟨3, ![2048, 2, 256]⟩
abbrev S1x256 : Shape := ⟨2, ![1, 256]⟩
abbrev S1x512 : Shape := ⟨2, ![1, 512]⟩
abbrev S1x10 : Shape := ⟨2, ![1, 10]⟩
abbrev S16384x10 : Shape := ⟨2, ![16384, 10]⟩
abbrev S512x4096 : Shape := ⟨2, ![512, 4096]⟩
abbrev S512x256 : Shape := ⟨2, ![512, 256]⟩
abbrev S512x512 : Shape := ⟨2, ![512, 512]⟩

abbrev nBuf : Space → Nat
  | .hbm => 28
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096x256, .f32⟩
  | .hbm, ⟨2, _⟩ => ⟨S256, .f32⟩
  | .hbm, ⟨3, _⟩ => ⟨S256x512, .f32⟩
  | .hbm, ⟨4, _⟩ => ⟨S512, .f32⟩
  | .hbm, ⟨5, _⟩ => ⟨S512x10, .f32⟩
  | .hbm, ⟨6, _⟩ => ⟨S10, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S_, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S_, .f32⟩
  | .hbm, ⟨15, _⟩ => ⟨S2048x256, .f32⟩
  | .hbm, ⟨16, _⟩ => ⟨S2048x256, .f32⟩
  | .hbm, ⟨17, _⟩ => ⟨S2048x1x256, .f32⟩
  | .hbm, ⟨18, _⟩ => ⟨S2048x1x256, .f32⟩
  | .hbm, ⟨19, _⟩ => ⟨S2048x2x256, .f32⟩
  | .hbm, ⟨20, _⟩ => ⟨S4096x256, .f32⟩
  | .hbm, ⟨21, _⟩ => ⟨S4096x256, .bf16⟩
  | .hbm, ⟨22, _⟩ => ⟨S256x512, .bf16⟩
  | .hbm, ⟨23, _⟩ => ⟨S512x10, .bf16⟩
  | .hbm, ⟨24, _⟩ => ⟨S1x256, .f32⟩
  | .hbm, ⟨25, _⟩ => ⟨S1x512, .f32⟩
  | .hbm, ⟨26, _⟩ => ⟨S1x10, .f32⟩
  | .hbm, ⟨27, _⟩ => ⟨S16384x10, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S256x512, .bf16⟩
  | .local _ .vmem, ⟨4, _⟩ => ⟨S512x10, .bf16⟩
  | .local _ .vmem, ⟨5, _⟩ => ⟨S1x256, .f32⟩
  | .local _ .vmem, ⟨6, _⟩ => ⟨S1x512, .f32⟩
  | .local _ .vmem, ⟨7, _⟩ => ⟨S1x10, .f32⟩
  | .local _ .vmem, ⟨8, _⟩ => ⟨S512x10, .f32⟩
  | .local _ .vmem, ⟨9, _⟩ => ⟨S512x10, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4096x256_S2048x256_0_0 : S4096x256.Slices ![0, 0] S2048x256
  slices_S4096x256_S2048x256_2048_0 : S4096x256.Slices ![2048, 0] S2048x256
  bcast_S_S2048x256 : S_.BroadcastsInDim S2048x256 (![] : Fin 0 → Fin S2048x256.rank)
  bcast_S2048x256_S2048x1x256_0_2 : S2048x256.BroadcastsInDim S2048x1x256 (![0, 2] : Fin 2 → Fin S2048x1x256.rank)
  concatenates_S2048x1x256_S2048x1x256_S2048x2x256_d1 : Shape.Concatenates [S2048x1x256, S2048x1x256] S2048x2x256 1
  shapeCasts_S2048x2x256_S4096x256 : S2048x2x256.ShapeCasts S4096x256
  bitsLt_bf16_f32 : FTy.bits .bf16 < FTy.bits .f32
  shapeCasts_S256_S1x256 : S256.ShapeCasts S1x256
  shapeCasts_S512_S1x512 : S512.ShapeCasts S1x512
  shapeCasts_S10_S1x10 : S10.ShapeCasts S1x10
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  dot_S512x4096_S4096x256_S512x256_1_0_0_1_n_n_wf : DotDims.WF S512x4096 S4096x256 S512x256 [1] [0] [0] [1] [] []
  dot_S512x256_S256x512_S512x512_1_0_0_1_n_n_wf : DotDims.WF S512x256 S256x512 S512x512 [1] [0] [0] [1] [] []
  dot_S512x512_S512x10_S512x10_1_0_0_1_n_n_wf : DotDims.WF S512x512 S512x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x10.size a ≤ S512x10.size a
  hwx0_3 : ∀ i : grid0.Coords, EltTy.bits .bf16 = 32 ∨ (Rect.block (s := S512x10) S512x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x10.size a ≤ S16384x10.size a
  hwx0_7 : ∀ i : grid0.Coords, EltTy.bits .f32 = 32 ∨ (Rect.block (s := S16384x10) S512x10.size (cc0_transform_7 i) (hinb0_7 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S512x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x256 : Shape := ⟨2, ![4096, 256]⟩
abbrev S256 : Shape := ⟨1, ![256]⟩
abbrev S256x512 : Shape := ⟨2, ![256, 512]⟩
abbrev S512 : Shape := ⟨1, ![512]⟩
abbrev S512x10 : Shape := ⟨2, ![512, 10]⟩
abbrev S10 : Shape := ⟨1, ![10]⟩
abbrev S16384x2048x2 : Shape := ⟨3, ![16384, 2048, 2]⟩
abbrev S16384x2048x1 : Shape := ⟨3, ![16384, 2048, 1]⟩
abbrev S16384x2048 : Shape := ⟨2, ![16384, 2048]⟩
abbrev S_ : Shape := ⟨0, ![]⟩
abbrev S16384x256 : Shape := ⟨2, ![16384, 256]⟩
abbrev S1x256 : Shape := ⟨2, ![1, 256]⟩
abbrev S16384x512 : Shape := ⟨2, ![16384, 512]⟩
abbrev S1x512 : Shape := ⟨2, ![1, 512]⟩
abbrev S16384x10 : Shape := ⟨2, ![16384, 10]⟩
abbrev S1x10 : Shape := ⟨2, ![1, 10]⟩

abbrev nBuf : Space → Nat
  | .hbm => 43
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x256, .f32⟩
  | .hbm, ⟨2, _⟩ => ⟨S256, .f32⟩
  | .hbm, ⟨3, _⟩ => ⟨S256x512, .f32⟩
  | .hbm, ⟨4, _⟩ => ⟨S512, .f32⟩
  | .hbm, ⟨5, _⟩ => ⟨S512x10, .f32⟩
  | .hbm, ⟨6, _⟩ => ⟨S10, .f32⟩
  | .hbm, ⟨7, _⟩ => ⟨S16384x2048x2, .f32⟩
  | .hbm, ⟨8, _⟩ => ⟨S16384x2048x1, .f32⟩
  | .hbm, ⟨9, _⟩ => ⟨S16384x2048, .f32⟩
  | .hbm, ⟨10, _⟩ => ⟨S16384x2048x1, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048x1, .f32⟩
  | .hbm, ⟨17, _⟩ => ⟨S16384x2048, .f32⟩
  | .hbm, ⟨18, _⟩ => ⟨S16384x2048x1, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x4096, .f32⟩
  | .hbm, ⟨25, _⟩ => ⟨S16384x256, .f32⟩
  | .hbm, ⟨26, _⟩ => ⟨S1x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x512, .f32⟩
  | .hbm, ⟨33, _⟩ => ⟨S1x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x10, .f32⟩
  | .hbm, ⟨40, _⟩ => ⟨S1x10, .f32⟩
  | .hbm, ⟨41, _⟩ => ⟨S16384x10, .f32⟩
  | .hbm, ⟨42, _⟩ => ⟨S16384x10, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call1_cst : Ref sig .tc := ⟨.hbm, 36, rfl⟩
abbrev main_call1_v0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  shapeCasts_S16384x4096_S16384x2048x2 : S16384x4096.ShapeCasts S16384x2048x2
  slices_S16384x2048x2_S16384x2048x1_0_0_0 : S16384x2048x2.Slices ![0, 0, 0] S16384x2048x1
  shapeCasts_S16384x2048x1_S16384x2048 : S16384x2048x1.ShapeCasts S16384x2048
  slices_S16384x2048x2_S16384x2048x1_0_0_1 : S16384x2048x2.Slices ![0, 0, 1] S16384x2048x1
  bcast_S_S16384x2048 : S_.BroadcastsInDim S16384x2048 (![] : Fin 0 → Fin S16384x2048.rank)
  concatenates_S16384x2048_S16384x2048_S16384x4096_d1 : Shape.Concatenates [S16384x2048, S16384x2048] S16384x4096 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  dot_S16384x4096_S4096x256_S16384x256_1_0_0_1_n_n_wf : DotDims.WF S16384x4096 S4096x256 S16384x256 [1] [0] [0] [1] [] []
  dot_S16384x256_S256x512_S16384x512_1_0_0_1_n_n_wf : DotDims.WF S16384x256 S256x512 S16384x512 [1] [0] [0] [1] [] []
  dot_S16384x512_S512x10_S16384x10_1_0_0_1_n_n_wf : DotDims.WF S16384x512 S512x10 S16384x10 [1] [0] [0] [1] [] []

variable [Facts₀]

def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf
def dot_S16384x256_S256x512_S16384x512_1_0_0_1_n_n : DotDims S16384x256 S256x512 S16384x512 where
  lhsContracting := [1]
  rhsContracting := [0]
  lhsNonContracting := [0]
  rhsNonContracting := [1]
  lhsBatch := []
  rhsBatch := []
  wf := dot_S16384x256_S256x512_S16384x512_1_0_0_1_n_n_wf
def dot_S16384x512_S512x10_S16384x10_1_0_0_1_n_n : DotDims S16384x512 S512x10 S16384x10 where
  lhsContracting := [1]
  rhsContracting := [0]
  lhsNonContracting := [0]
  rhsNonContracting := [1]
  lhsBatch := []
  rhsBatch := []
  wf := dot_S16384x512_S512x10_S16384x10_1_0_0_1_n_n_wf

class Facts : Prop extends Facts₀ where

variable [Facts]
-- ==== Proof.InputsReal.lean ====
/-
  From the precondition to real numbers.

  The precondition is the conjunction, over the seven inputs, of "every entry has absolute value below +∞".  On the
  extended reals `|x| < +∞` excludes exactly the two infinities, so each entry of an input is a real number.  The
  first-layer identity needs this of the input rows and of the first-layer weights, the first two conjuncts.
-/
import proofs.«152249_j14396730376550_1_alg».proof.Proof.Gen.Pre_finite_inputs
import Idealize.ShloMosaic.Lib.ReduceAll
import Idealize.ShloMosaic.Lib.Affine
import Idealize.ShloMosaic.Lib.ValueIdx

noncomputable section

namespace Cert.Pre_finite_inputs.Reals

open Cert.Pre_finite_inputs Idealize.ShloMosaic Idealize.ShloMosaic.ValueIdx

instance : Subsingleton S_.Idx := ⟨fun a b => funext fun d => d.elim0⟩

/-- The bit pattern the comparison is made against denotes +∞. -/
theorem inf_word : Ideal.ofBits .f32 0x7F800000#32 = (⊤ : EReal) := by
  simp [Ideal.ofBits, Ideal.ieee]

/-- An extended real whose absolute value is below +∞ is a real number. -/
theorem real_of_abs_lt_top (x : EReal) (h : Ideal.cmp .olt (max x (-x)) (Ideal.ofBits .f32 0x7F800000#32) = 1#1) :
    ∃ r : ℝ, x = r := by
  rw [inf_word] at h
  revert h
  refine EReal.rec ?_ ?_ ?_ x
  · intro h; simp [Ideal.cmp] at h
  · intro r _; exact ⟨r, rfl⟩
  · intro h; simp [Ideal.cmp] at h

/-- Under the precondition every input row entry and every first-layer weight is a real number. -/
theorem reals (a0 : FVec Ideal S16384x4096 .f32) (a1 : FVec Ideal S4096x256 .f32) (a2 : FVec Ideal S256 .f32)
    (a3 : FVec Ideal S256x512 .f32) (a4 : FVec Ideal S512 .f32) (a5 : FVec Ideal S512x10 .f32) (a6 : FVec Ideal S10 .f32)
    (h : fn (F := Ideal) a0 a1 a2 a3 a4 a5 a6 = fun _ => 1#1) :
    (∀ i, ∃ r : ℝ, a0 i = r) ∧ (∀ i, ∃ r : ℝ, a1 i = r) := by
  have h0 := congrFun h ix0
  dsimp only [fn, fn_part1] at h0
  have h1 := (IntOp.andi_eq_one.mp h0).1
  have h2 := (IntOp.andi_eq_one.mp h1).1
  have h3 := (IntOp.andi_eq_one.mp h2).1
  have h4 := (IntOp.andi_eq_one.mp h3).1
  have h5 := (IntOp.andi_eq_one.mp h4).1
  obtain ⟨hx, hw⟩ := IntOp.andi_eq_one.mp h5
  refine ⟨fun i => ?_, fun i => ?_⟩
  · exact real_of_abs_lt_top (a0 i) (Host.reduce_andi_all _ _ _ _ ix0 hx i)
  · exact real_of_abs_lt_top (a1 i) (Host.reduce_andi_all _ _ _ _ ix0 hw i)

end Cert.Pre_finite_inputs.Reals

end
-- ==== Proof.HaarFold.lean ====
/-
  The mathematics of this certificate, with no program in sight.

  A row of the network is three dense layers with a rectifier between them:
  `dense h W b j = (∑ k, h k * W k j) + b j`, `relu h j = max (h j) 0`.

  The first layer is where the two programs differ.  One applies a level-1 Haar transform to the input row,
  `t (lo p) = (x (2p) + x (2p+1)) · c`, `t (hi p) = (x (2p) - x (2p+1)) · c` (the averages in the lower half, the
  differences in the upper half), and multiplies by the weights `W`.  The other folds the transform into the weights,
  `M (2p) = (W (lo p) + W (hi p)) · c`, `M (2p+1) = (W (lo p) - W (hi p)) · c`, and multiplies the untouched row by `M`.
  Regroup the first sum by halves and the second by parity: both become a sum over `p < 2048` whose terms agree by
  distributivity — `(a + b) c u + (a - b) c v = a ((u + v) c) + b ((u - v) c)` — which holds for real numbers and
  fails at infinities, so the law asks every entry to be a real.
-/
import Idealize.ShloMosaic.PureOps.Ideal.Laws

noncomputable section

namespace Cert.HaarMlp

open Idealize.ShloMosaic

/-! ## The four ways a position `p < 2048` sits inside `4096` -/

/-- Position `p` of the lower half. -/
def lo (p : Fin 2048) : Fin 4096 := ⟨p.val, by have := p.isLt; omega⟩
/-- Position `p` of the upper half. -/
def hi (p : Fin 2048) : Fin 4096 := ⟨2048 + p.val, by have := p.isLt; omega⟩
/-- The even position `2p`. -/
def evn (p : Fin 2048) : Fin 4096 := ⟨2 * p.val, by have := p.isLt; omega⟩
/-- The odd position `2p + 1`. -/
def odd (p : Fin 2048) : Fin 4096 := ⟨2 * p.val + 1, by have := p.isLt; omega⟩

/-- A sum over `4096` positions, taken as lower half plus upper half. -/
theorem sum_halves {M : Type*} [AddCommMonoid M] (f : Fin 4096 → M) :
    ∑ k, f k = ∑ p : Fin 2048, (f (lo p) + f (hi p)) := by
  have h : ∑ k : Fin (2048 + 2048), f k = _ := Fin.sum_univ_add (a := 2048) (b := 2048) (f : Fin (2048 + 2048) → M)
  rw [Finset.sum_add_distrib]
  exact h

/-- A sum over `4096` positions, taken as pairs (even, odd). -/
theorem sum_parity {M : Type*} [AddCommMonoid M] (f : Fin 4096 → M) :
    ∑ k, f k = ∑ p : Fin 2048, (f (evn p) + f (odd p)) := by
  have h : ∑ q : Fin 2048 × Fin 2, f (finProdFinEquiv q) = ∑ k : Fin 4096, f k :=
    Equiv.sum_comp (finProdFinEquiv (m := 2048) (n := 2)) f
  rw [← h, Fintype.sum_prod_type]
  refine Finset.sum_congr rfl fun p _ => ?_
  rw [Fin.sum_univ_two]
  have e0 : (finProdFinEquiv (p, (0 : Fin 2)) : Fin 4096) = evn p := Fin.ext (by simp [finProdFinEquiv, evn])
  have e1 : (finProdFinEquiv (p, (1 : Fin 2)) : Fin 4096) = odd p := Fin.ext (by simp [finProdFinEquiv, odd]; omega)
  rw [e0, e1]

/-! ## The filter coefficient -/

/-- The Haar filter coefficient both programs spell: the single-precision number nearest `1/√2`. -/
def coef : EReal := Ideal.ofBits .f32 0x3F3504F3#32

/-- It is a real number (its exponent field is neither all ones nor zero). -/
theorem coef_real : ∃ r : ℝ, coef = r := by
  unfold coef Ideal.ofBits Ideal.ieee
  simp only []
  rw [if_neg (by decide), if_neg (by decide)]
  exact ⟨_, rfl⟩

/-! ## The layers -/

/-- One dense layer on a row: the row times the weights, plus the bias. -/
def dense {K N : Nat} (h : Fin K → EReal) (W : Fin K → Fin N → EReal) (b : Fin N → EReal) : Fin N → EReal :=
  fun j => (∑ k : Fin K, h k * W k j) + b j

/-- The rectifier on a row. -/
def relu {N : Nat} (h : Fin N → EReal) : Fin N → EReal := fun j => max (h j) 0

/-- The network on one input row: 4096 → 256 → 512 → 10. -/
def mlp (h : Fin 4096 → EReal) (W₁ : Fin 4096 → Fin 256 → EReal) (b₁ : Fin 256 → EReal)
    (W₂ : Fin 256 → Fin 512 → EReal) (b₂ : Fin 512 → EReal) (W₃ : Fin 512 → Fin 10 → EReal) (b₃ : Fin 10 → EReal) :
    Fin 10 → EReal :=
  dense (relu (dense (relu (dense h W₁ b₁)) W₂ b₂)) W₃ b₃

/-! ## Folding the Haar transform into the weights -/

/-- The one term of the regrouped sums: distributivity over the reals. -/
theorem haar_term (a b u v c : ℝ) :
    ((a : EReal) + b) * c * u + ((a : EReal) - b) * c * v = (a : EReal) * (((u : EReal) + v) * c) + (b : EReal) * (((u : EReal) - v) * c) := by
  exact_mod_cast (by ring : (a + b) * c * u + (a - b) * c * v = a * ((u + v) * c) + b * ((u - v) * c))

/-- THE LAW.  The transformed row `t` against the weights `W` is the plain row `x` against the folded weights `M`,
    whenever the row, the weights and the filter coefficient are real numbers. -/
theorem dense_haar {N : Nat} (x t : Fin 4096 → EReal) (W M : Fin 4096 → Fin N → EReal) (b : Fin N → EReal) (c : EReal)
    (hx : ∀ k, ∃ r : ℝ, x k = r) (hW : ∀ k j, ∃ r : ℝ, W k j = r) (hc : ∃ r : ℝ, c = r)
    (htlo : ∀ p, t (lo p) = (x (evn p) + x (odd p)) * c) (hthi : ∀ p, t (hi p) = (x (evn p) - x (odd p)) * c)
    (hMe : ∀ p j, M (evn p) j = (W (lo p) j + W (hi p) j) * c) (hMo : ∀ p j, M (odd p) j = (W (lo p) j - W (hi p) j) * c) :
    dense t W b = dense x M b := by
  funext j
  unfold dense
  congr 1
  rw [sum_halves (fun k => t k * W k j), sum_parity (fun k => x k * M k j)]
  refine Finset.sum_congr rfl fun p _ => ?_
  show t (lo p) * W (lo p) j + t (hi p) * W (hi p) j = x (evn p) * M (evn p) j + x (odd p) * M (odd p) j
  rw [htlo p, hthi p, hMe p j, hMo p j]
  obtain ⟨a, ha⟩ := hx (evn p)
  obtain ⟨b', hb⟩ := hx (odd p)
  obtain ⟨u, hu⟩ := hW (lo p) j
  obtain ⟨v, hv⟩ := hW (hi p) j
  obtain ⟨c', hc'⟩ := hc
  rw [ha, hb, hu, hv, hc']
  exact haar_term a b' u v c'

end Cert.HaarMlp

end
-- ==== Proof.KernelRow.lean ====
/-
  The kernel body's one store, read at a row and a column of its block.

  The body multiplies the 512 loaded rows by the first weight block, adds the first bias, rectifies; again with the
  second weights and bias; and a third time without the rectifier.  Changes of float format are the identity on the
  extended reals, a matrix product into a zero accumulator is the plain sum over the contracted axis, and a bias block
  of one row is that row on every row.  So entry (r, o) of what is stored is the network `mlp` applied to row `r` of
  the loaded input block: each output row depends on its own input row only.
-/
import proofs.«152249_j14396730376550_1_alg».proof.Proof.Gen.KernelIdeal.Skeleton
import proofs.«152249_j14396730376550_1_alg».proof.Proof.HaarFold
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.HaarMlp

/-- Layer 1's matrix product into a zero accumulator, read at row `r`, column `j`: the row of the left factor against
    the column of the right, summed over the 4096 contracted positions. -/
theorem mm1_apply (L : FVec Ideal S512x4096 .bf16) (R : FVec Ideal S4096x256 .bf16) (r : Fin 512) (j : Fin 256) :
    matmul dot_S512x4096_S4096x256_S512x256_1_0_0_1_n_n none L R (constant (F := Ideal) S512x256 .f32 0x00000000#32) (ix2 r j)
      = ∑ k : Fin 4096, L (ix2 r k) * R (ix2 k j) := by
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 r j) ((contrEquiv1 dot_S512x4096_S4096x256_S512x256_1_0_0_1_n_n 4096 rfl rfl).symm k) = ix2 r k := funext fun a => Fin.ext (by
    match a with
    | ⟨0, _⟩ =>
      show (dot_S512x4096_S4096x256_S512x256_1_0_0_1_n_n.lhsIdx (ix2 r j) _ 0).val = r.val
      unfold DotDims.lhsIdx
      rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
      rfl
    | ⟨1, _⟩ => exact (dot_S512x4096_S4096x256_S512x256_1_0_0_1_n_n.lhsIdx_val_of_single rfl _ _).trans hk)
  have er : dot_S512x4096_S4096x256_S512x256_1_0_0_1_n_n.rhsIdx (ix2 r j) ((contrEquiv1 dot_S512x4096_S4096x256_S512x256_1_0_0_1_n_n 4096 rfl rfl).symm k) = ix2 k j := funext fun a => Fin.ext (by
    match a with
    | ⟨0, _⟩ => exact (dot_S512x4096_S4096x256_S512x256_1_0_0_1_n_n.rhsIdx_val_of_single rfl _ _).trans hk
    | ⟨1, _⟩ =>
      show (dot_S512x4096_S4096x256_S512x256_1_0_0_1_n_n.rhsIdx (ix2 r j) _ 1).val = j.val
      unfold DotDims.rhsIdx
      rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
      rfl)
  rw [el, er]

/-- Layer 1's bias, a single row repeated down the 512 rows of the block. -/
theorem bias1_apply (v : FVec Ideal S1x256 .f32) (r : Fin 512) (j : Fin 256) :
    broadcastTo S512x256 v broadcasts_S1x256_S512x256 (ix2 r j) = v (ix2 (0 : Fin 1) j) := by
  exact broadcastTo_apply v broadcasts_S1x256_S512x256 (ix2 r j) (ix2 (0 : Fin 1) j) (fun a => match a with
    | ⟨0, _⟩ => by show (0 : Nat) = if (1 : Nat) = 1 then 0 else _; rw [if_pos rfl]
    | ⟨1, _⟩ => by show j.val = if (256 : Nat) = 1 then 0 else _; rw [if_neg (by decide)]; rfl)

/-- Layer 1 before its rectifier, at row `r`: the dense layer on that row. -/
theorem layer1_apply (L : FVec Ideal S512x4096 .bf16) (R : FVec Ideal S4096x256 .bf16) (v : FVec Ideal S1x256 .f32) (r : Fin 512) (j : Fin 256) :
    addf (matmul dot_S512x4096_S4096x256_S512x256_1_0_0_1_n_n none L R (constant (F := Ideal) S512x256 .f32 0x00000000#32))
        (broadcastTo S512x256 v broadcasts_S1x256_S512x256) (ix2 r j)
      = dense (fun k => L (ix2 r k)) (fun k j => R (ix2 k j)) (fun j => v (ix2 (0 : Fin 1) j)) j := by
  rw [addf_apply, mm1_apply, bias1_apply]
  rfl

/-- Layer 2's matrix product into a zero accumulator, read at row `r`, column `j`: the row of the left factor against
    the column of the right, summed over the 256 contracted positions. -/
theorem mm2_apply (L : FVec Ideal S512x256 .bf16) (R : FVec Ideal S256x512 .bf16) (r : Fin 512) (j : Fin 512) :
    matmul dot_S512x256_S256x512_S512x512_1_0_0_1_n_n none L R (constant (F := Ideal) S512x512 .f32 0x00000000#32) (ix2 r j)
      = ∑ k : Fin 256, L (ix2 r k) * R (ix2 k j) := by
  simp only [matmul]
  rw [Ideal.matmul_constant_zero_apply, ← Equiv.sum_comp (contrEquiv1 dot_S512x256_S256x512_S512x512_1_0_0_1_n_n 256 rfl rfl).symm]
  refine Finset.sum_congr rfl fun k _ => ?_
  have hk := contrEquiv1_symm_val dot_S512x256_S256x512_S512x512_1_0_0_1_n_n 256 rfl rfl k
  have el : dot_S512x256_S256x512_S512x512_1_0_0_1_n_n.lhsIdx (ix2 r j) ((contrEquiv1 dot_S512x256_S256x512_S512x512_1_0_0_1_n_n 256 rfl rfl).symm k) = ix2 r k := funext fun a => Fin.ext (by
    match a with
    | ⟨0, _⟩ =>
      show (dot_S512x256_S256x512_S512x512_1_0_0_1_n_n.lhsIdx (ix2 r j) _ 0).val = r.val
      unfold DotDims.lhsIdx
      rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
      rfl
    | ⟨1, _⟩ => exact (dot_S512x256_S256x512_S512x512_1_0_0_1_n_n.lhsIdx_val_of_single rfl _ _).trans hk)
  have er : dot_S512x256_S256x512_S512x512_1_0_0_1_n_n.rhsIdx (ix2 r j) ((contrEquiv1 dot_S512x256_S256x512_S512x512_1_0_0_1_n_n 256 rfl rfl).symm k) = ix2 k j := funext fun a => Fin.ext (by
    match a with
    | ⟨0, _⟩ => exact (dot_S512x256_S256x512_S512x512_1_0_0_1_n_n.rhsIdx_val_of_single rfl _ _).trans hk
    | ⟨1, _⟩ =>
      show (dot_S512x256_S256x512_S512x512_1_0_0_1_n_n.rhsIdx (ix2 r j) _ 1).val = j.val
      unfold DotDims.rhsIdx
      rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
      rfl)
  rw [el, er]

/-- Layer 2's bias, a single row repeated down the 512 rows of the block. -/
theorem bias2_apply (v : FVec Ideal S1x512 .f32) (r : Fin 512) (j : Fin 512) :
    broadcastTo S512x512 v broadcasts_S1x512_S512x512 (ix2 r j) = v (ix2 (0 : Fin 1) j) := by
  exact broadcastTo_apply v broadcasts_S1x512_S512x512 (ix2 r j) (ix2 (0 : Fin 1) j) (fun a => match a with
    | ⟨0, _⟩ => by show (0 : Nat) = if (1 : Nat) = 1 then 0 else _; rw [if_pos rfl]
    | ⟨1, _⟩ => by show j.val = if (512 : Nat) = 1 then 0 else _; rw [if_neg (by decide)]; rfl)

/-- Layer 2 before its rectifier, at row `r`: the dense layer on that row. -/
theorem layer2_apply (L : FVec Ideal S512x256 .bf16) (R : FVec Ideal S256x512 .bf16) (v : FVec Ideal S1x512 .f32) (r : Fin 512) (j : Fin 512) :
    addf (matmul dot_S512x256_S256x512_S512x512_1_0_0_1_n_n none L R (constant (F := Ideal) S512x512 .f32 0x00000000#32))
        (broadcastTo S512x512 v broadcasts_S1x512_S512x512) (ix2 r j)
      = dense (fun k => L (ix2 r k)) (fun k j => R (ix2 k j)) (fun j => v (ix2 (0 : Fin 1) j)) j := by
  rw [addf_apply, mm2_apply, bias2_apply]
  rfl

/-- Layer 3's matrix product into a zero accumulator, read at row `r`, column `j`: the row of the left factor against
    the column of the right, summed over the 512 contracted positions. -/
theorem mm3_apply (L : FVec Ideal S512x512 .bf16) (R : FVec Ideal S512x10 .bf16) (r : Fin 512) (j : Fin 10) :
    matmul dot_S512x512_S512x10_S512x10_1_0_0_1_n_n none L R (constant (F := Ideal) S512x10 .f32 0x00000000#32) (ix2 r j)
      = ∑ k : Fin 512, L (ix2 r k) * R (ix2 k j) := by
  simp only [matmul]
  rw [Ideal.matmul_constant_zero_apply, ← Equiv.sum_comp (contrEquiv1 dot_S512x512_S512x10_S512x10_1_0_0_1_n_n 512 rfl rfl).symm]
  refine Finset.sum_congr rfl fun k _ => ?_
  have hk := contrEquiv1_symm_val dot_S512x512_S512x10_S512x10_1_0_0_1_n_n 512 rfl rfl k
  have el : dot_S512x512_S512x10_S512x10_1_0_0_1_n_n.lhsIdx (ix2 r j) ((contrEquiv1 dot_S512x512_S512x10_S512x10_1_0_0_1_n_n 512 rfl rfl).symm k) = ix2 r k := funext fun a => Fin.ext (by
    match a with
    | ⟨0, _⟩ =>
      show (dot_S512x512_S512x10_S512x10_1_0_0_1_n_n.lhsIdx (ix2 r j) _ 0).val = r.val
      unfold DotDims.lhsIdx
      rw [dif_neg (show ¬(0 : Fin S512x512.rank) ∈ dot_S512x512_S512x10_S512x10_1_0_0_1_n_n.lhsBatch by decide), dif_pos (show (0 : Fin S512x512.rank) ∈ dot_S512x512_S512x10_S512x10_1_0_0_1_n_n.lhsNonContracting by decide)]
      rfl
    | ⟨1, _⟩ => exact (dot_S512x512_S512x10_S512x10_1_0_0_1_n_n.lhsIdx_val_of_single rfl _ _).trans hk)
  have er : dot_S512x512_S512x10_S512x10_1_0_0_1_n_n.rhsIdx (ix2 r j) ((contrEquiv1 dot_S512x512_S512x10_S512x10_1_0_0_1_n_n 512 rfl rfl).symm k) = ix2 k j := funext fun a => Fin.ext (by
    match a with
    | ⟨0, _⟩ => exact (dot_S512x512_S512x10_S512x10_1_0_0_1_n_n.rhsIdx_val_of_single rfl _ _).trans hk
    | ⟨1, _⟩ =>
      show (dot_S512x512_S512x10_S512x10_1_0_0_1_n_n.rhsIdx (ix2 r j) _ 1).val = j.val
      unfold DotDims.rhsIdx
      rw [dif_neg (show ¬(1 : Fin S512x10.rank) ∈ dot_S512x512_S512x10_S512x10_1_0_0_1_n_n.rhsBatch by decide), dif_pos (show (1 : Fin S512x10.rank) ∈ dot_S512x512_S512x10_S512x10_1_0_0_1_n_n.rhsNonContracting by decide)]
      rfl)
  rw [el, er]

/-- Layer 3's bias, a single row repeated down the 512 rows of the block. -/
theorem bias3_apply (v : FVec Ideal S1x10 .f32) (r : Fin 512) (j : Fin 10) :
    broadcastTo S512x10 v broadcasts_S1x10_S512x10 (ix2 r j) = v (ix2 (0 : Fin 1) j) := by
  exact broadcastTo_apply v broadcasts_S1x10_S512x10 (ix2 r j) (ix2 (0 : Fin 1) j) (fun a => match a with
    | ⟨0, _⟩ => by show (0 : Nat) = if (1 : Nat) = 1 then 0 else _; rw [if_pos rfl]
    | ⟨1, _⟩ => by show j.val = if (10 : Nat) = 1 then 0 else _; rw [if_neg (by decide)]; rfl)

/-- Layer 3 before its rectifier, at row `r`: the dense layer on that row. -/
theorem layer3_apply (L : FVec Ideal S512x512 .bf16) (R : FVec Ideal S512x10 .bf16) (v : FVec Ideal S1x10 .f32) (r : Fin 512) (j : Fin 10) :
    addf (matmul dot_S512x512_S512x10_S512x10_1_0_0_1_n_n none L R (constant (F := Ideal) S512x10 .f32 0x00000000#32))
        (broadcastTo S512x10 v broadcasts_S1x10_S512x10) (ix2 r j)
      = dense (fun k => L (ix2 r k)) (fun k j => R (ix2 k j)) (fun j => v (ix2 (0 : Fin 1) j)) j := by
  rw [addf_apply, mm3_apply, bias3_apply]
  rfl

/-- The rectifier's zero splat reads as the real zero. -/
theorem zero_apply (s : Shape) (i : s.Idx) : broadcast s (FloatOps.ofBits (F := Ideal) .f32 0x00000000#32) i = (0 : EReal) :=
  Ideal.ofBits_zero_f32

/-- THE STORED BLOCK AT (r, o): the network on row `r` of the input block, with the weight and bias blocks as loaded. -/
theorem pay_apply (x0 : Vec Ideal S512x4096 .f32) (x1 : Vec Ideal S4096x256 .bf16) (x4 : Vec Ideal S1x256 .f32)
    (x2 : Vec Ideal S256x512 .bf16) (x5 : Vec Ideal S1x512 .f32) (x3 : Vec Ideal S512x10 .bf16) (x6 : Vec Ideal S1x10 .f32)
    (r : Fin 512) (o : Fin 10) :
    k0_pay1 (F := Ideal) x0 x1 x4 x2 x5 x3 x6 (ix2 r o)
      = mlp (fun k => x0 (ix2 r k)) (fun k j => x1 (ix2 k j)) (fun j => x4 (ix2 (0 : Fin 1) j))
          (fun k j => x2 (ix2 k j)) (fun j => x5 (ix2 (0 : Fin 1) j)) (fun k j => x3 (ix2 k j)) (fun j => x6 (ix2 (0 : Fin 1) j)) o := by
  unfold k0_pay1 mlp
  simp only [shapeCast_self]
  rw [layer3_apply]
  refine congrArg (fun h => dense h _ _ o) (funext fun k => ?_)
  show max (addf _ _ (ix2 r k)) (broadcast S512x512 (FloatOps.ofBits (F := Ideal) .f32 0x00000000#32) (ix2 r k)) = relu _ k
  rw [zero_apply, layer2_apply]
  unfold relu
  refine congrArg (fun h => max (dense h _ _ k) 0) (funext fun k' => ?_)
  show max (addf _ _ (ix2 r k')) (broadcast S512x256 (FloatOps.ofBits (F := Ideal) .f32 0x00000000#32) (ix2 r k')) = _
  rw [zero_apply, layer1_apply]
  rfl

end Cert.KernelIdeal.Row

end
-- ==== Proof.RegionArrays.lean ====
/-
  What the region finds in the arrays its windows stage.

  Before the call the host builds the folded first-layer weights from `W`: the lower and upper halves of `W`'s rows
  are added and subtracted, both scaled by the filter coefficient, and the two results are interleaved row by row — the
  scaled sum of rows `p` and `2048 + p` lands in row `2p`, their scaled difference in row `2p + 1` (a stack of the two
  along a new middle axis, flattened).  The other windows stage the second and third weights (a change of float format
  only) and the three biases as single rows.
-/
import proofs.«152249_j14396730376550_1_alg».proof.Proof.Gen.KernelIdeal.Frame
import proofs.«152249_j14396730376550_1_alg».proof.Proof.HaarFold
import Idealize.ShloMosaic.Lib.ValueIdx
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.HaarMlp

/-- The scaled sum of the two halves of `W`'s rows. -/
def halfSum (W : FVec Ideal S4096x256 .f32) : FVec Ideal S2048x256 .f32 :=
  (mulf (addf (extractStridedSlice S2048x256 ![0, 0] W slices_S4096x256_S2048x256_0_0) (extractStridedSlice S2048x256 ![2048, 0] W slices_S4096x256_S2048x256_2048_0)) (broadcastInDim S2048x256 ![] bcast_S_S2048x256 (constant (F := Ideal) S_ .f32 0x3F3504F3#32)))

/-- The scaled difference of the two halves of `W`'s rows. -/
def halfDiff (W : FVec Ideal S4096x256 .f32) : FVec Ideal S2048x256 .f32 :=
  (mulf (subf (extractStridedSlice S2048x256 ![0, 0] W slices_S4096x256_S2048x256_0_0) (extractStridedSlice S2048x256 ![2048, 0] W slices_S4096x256_S2048x256_2048_0)) (broadcastInDim S2048x256 ![] bcast_S_S2048x256 (constant (F := Ideal) S_ .f32 0x3F3504F3#32)))

/-- The folded weights: sums and differences interleaved row by row. -/
def folded (W : FVec Ideal S4096x256 .f32) : FVec Ideal S4096x256 .bf16 :=
  truncf .bf16 (shapeCast S4096x256 (concatenate S2048x2x256 1
    [⟨S2048x1x256, broadcastInDim S2048x1x256 ![0, 2] bcast_S2048x256_S2048x1x256_0_2 (halfSum W)⟩,
     ⟨S2048x1x256, broadcastInDim S2048x1x256 ![0, 2] bcast_S2048x256_S2048x1x256_0_2 (halfDiff W)⟩]
    concatenates_S2048x1x256_S2048x1x256_S2048x2x256_d1) shapeCasts_S2048x2x256_S4096x256) bitsLt_bf16_f32

/-! ## The scaled sum and difference at an entry -/

theorem halfSum_apply (W : FVec Ideal S4096x256 .f32) (p : Fin 2048) (j : Fin 256) :
    halfSum W (ix2 p j) = (W (ix2 (lo p) j) + W (ix2 (hi p) j)) * coef := by
  unfold halfSum
  rw [mulf_apply, addf_apply]
  rw [extractStridedSlice_apply ![0, 0] W slices_S4096x256_S2048x256_0_0 (ix2 p j) (ix2 (lo p) j) (fun a => match a with
      | ⟨0, _⟩ => by show p.val = 0 + p.val; omega
      | ⟨1, _⟩ => by show j.val = 0 + j.val; omega),
    extractStridedSlice_apply ![2048, 0] W slices_S4096x256_S2048x256_2048_0 (ix2 p j) (ix2 (hi p) j) (fun a => match a with
      | ⟨0, _⟩ => by show 2048 + p.val = 2048 + p.val; rfl
      | ⟨1, _⟩ => by show j.val = 0 + j.val; omega),
    broadcastInDim_apply _ bcast_S_S2048x256 _ (ix2 p j) ix0 (fun a => a.elim0)]
  rfl

theorem halfDiff_apply (W : FVec Ideal S4096x256 .f32) (p : Fin 2048) (j : Fin 256) :
    halfDiff W (ix2 p j) = (W (ix2 (lo p) j) - W (ix2 (hi p) j)) * coef := by
  unfold halfDiff
  rw [mulf_apply, subf_apply]
  rw [extractStridedSlice_apply ![0, 0] W slices_S4096x256_S2048x256_0_0 (ix2 p j) (ix2 (lo p) j) (fun a => match a with
      | ⟨0, _⟩ => by show p.val = 0 + p.val; omega
      | ⟨1, _⟩ => by show j.val = 0 + j.val; omega),
    extractStridedSlice_apply ![2048, 0] W slices_S4096x256_S2048x256_2048_0 (ix2 p j) (ix2 (hi p) j) (fun a => match a with
      | ⟨0, _⟩ => by show 2048 + p.val = 2048 + p.val; rfl
      | ⟨1, _⟩ => by show j.val = 0 + j.val; omega),
    broadcastInDim_apply _ bcast_S_S2048x256 _ (ix2 p j) ix0 (fun a => a.elim0)]
  rfl

/-! ## The folded weights at an even and at an odd row -/

/-- Row `2p` of the folded weights is the scaled sum of rows `p` and `2048 + p`. -/
theorem folded_evn (W : FVec Ideal S4096x256 .f32) (p : Fin 2048) (j : Fin 256) :
    folded W (ix2 (evn p) j) = (W (ix2 (lo p) j) + W (ix2 (hi p) j)) * coef := by
  unfold folded
  rw [truncf_apply]
  rw [shapeCast_apply _ shapeCasts_S2048x2x256_S4096x256 (ix2 (evn p) j) (ix3 p (0 : Fin 2) j)
    (by rewrite [Shape.rowMajor_val_three, Shape.rowMajor_val_two]
        show (p.val * 2 + 0) * 256 + j.val = (2 * p.val) * 256 + j.val; omega)]
  rw [concatenate_pair_apply_left (t := S2048x2x256) (s₁ := S2048x1x256) (s₂ := S2048x1x256) (1 : Fin 3) _ _ concatenates_S2048x1x256_S2048x1x256_S2048x2x256_d1 (ix3 p (0 : Fin 2) j) rfl
    (ix3 p (0 : Fin 1) j) (fun b => match b with
      | ⟨0, _⟩ => rfl
      | ⟨1, _⟩ => rfl
      | ⟨2, _⟩ => rfl)]
  rw [broadcastInDim_apply _ bcast_S2048x256_S2048x1x256_0_2 _ (ix3 p (0 : Fin 1) j) (ix2 p j) (fun a => match a with
      | ⟨0, _⟩ => by show p.val = if (2048 : Nat) = 1 then 0 else p.val; rw [if_neg (by decide)]
      | ⟨1, _⟩ => by show j.val = if (256 : Nat) = 1 then 0 else j.val; rw [if_neg (by decide)])]
  exact halfSum_apply W p j

/-- Row `2p + 1` of the folded weights is the scaled difference of rows `p` and `2048 + p`. -/
theorem folded_odd (W : FVec Ideal S4096x256 .f32) (p : Fin 2048) (j : Fin 256) :
    folded W (ix2 (odd p) j) = (W (ix2 (lo p) j) - W (ix2 (hi p) j)) * coef := by
  unfold folded
  rw [truncf_apply]
  rw [shapeCast_apply _ shapeCasts_S2048x2x256_S4096x256 (ix2 (odd p) j) (ix3 p (1 : Fin 2) j)
    (by rewrite [Shape.rowMajor_val_three, Shape.rowMajor_val_two]
        show (p.val * 2 + 1) * 256 + j.val = (2 * p.val + 1) * 256 + j.val; omega)]
  rw [concatenate_pair_apply_right (t := S2048x2x256) (s₁ := S2048x1x256) (s₂ := S2048x1x256) (1 : Fin 3) _ _ concatenates_S2048x1x256_S2048x1x256_S2048x2x256_d1 (ix3 p (1 : Fin 2) j) rfl rfl
    (ix3 p (0 : Fin 1) j) (fun b hb => match b, hb with
      | ⟨0, _⟩, _ => rfl
      | ⟨1, _⟩, hb => absurd rfl hb
      | ⟨2, _⟩, _ => rfl) (by show 0 + 1 = 1; rfl)]
  rw [broadcastInDim_apply _ bcast_S2048x256_S2048x1x256_0_2 _ (ix3 p (0 : Fin 1) j) (ix2 p j) (fun a => match a with
      | ⟨0, _⟩ => by show p.val = if (2048 : Nat) = 1 then 0 else p.val; rw [if_neg (by decide)]
      | ⟨1, _⟩ => by show j.val = if (256 : Nat) = 1 then 0 else j.val; rw [if_neg (by decide)])]
  exact halfDiff_apply W p j

/-! ## The arrays at region entry -/

variable (m : (ℓ : Loc nD τ sig) → Buf (Elt Ideal) ℓ)

/-- The second window's array holds the folded weights of the first-layer weight argument. -/
theorem V_folded (c : Dev nD) :
    (V m c main_v12 : S4096x256.Idx → EReal) = folded (m ((c : Thread nD τ).loc main_arg1)) := by
  dsimp only [Gen.V, Gen.hostOps0]; after_results; rfl

/-- The third window's array is the second-layer weight argument. -/
theorem V_w2 (c : Dev nD) :
    (V m c main_v13 : S256x512.Idx → EReal) = (m ((c : Thread nD τ).loc main_arg3) : S256x512.Idx → EReal) := by
  dsimp only [Gen.V, Gen.hostOps0]; after_results; rfl

/-- The fourth window's array is the third-layer weight argument. -/
theorem V_w3 (c : Dev nD) :
    (V m c main_v14 : S512x10.Idx → EReal) = (m ((c : Thread nD τ).loc main_arg5) : S512x10.Idx → EReal) := by
  dsimp only [Gen.V, Gen.hostOps0]; after_results; rfl

/-- The bias windows' arrays are the bias arguments as single rows. -/
theorem V_b1 (c : Dev nD) :
    (V m c main_v15 : S1x256.Idx → EReal) = shapeCast S1x256 (m ((c : Thread nD τ).loc main_arg2) : S256.Idx → EReal) shapeCasts_S256_S1x256 := by
  dsimp only [Gen.V, Gen.hostOps0]; after_results; rfl

theorem V_b2 (c : Dev nD) :
    (V m c main_v16 : S1x512.Idx → EReal) = shapeCast S1x512 (m ((c : Thread nD τ).loc main_arg4) : S512.Idx → EReal) shapeCasts_S512_S1x512 := by
  dsimp only [Gen.V, Gen.hostOps0]; after_results; rfl

theorem V_b3 (c : Dev nD) :
    (V m c main_v17 : S1x10.Idx → EReal) = shapeCast S1x10 (m ((c : Thread nD τ).loc main_arg6) : S10.Idx → EReal) shapeCasts_S10_S1x10 := by
  dsimp only [Gen.V, Gen.hostOps0]; after_results; rfl

/-- A bias as a single row, read at its one row: the bias entry. -/
theorem row256_apply (b : S256.Idx → EReal) (j : Fin 256) : shapeCast S1x256 b shapeCasts_S256_S1x256 (ix2 (0 : Fin 1) j) = b (ix1 j) :=
  shapeCast_apply b shapeCasts_S256_S1x256 (ix2 (0 : Fin 1) j) (ix1 j)
    (by rewrite [Shape.rowMajor_val_one, Shape.rowMajor_val_two]; show j.val = 0 * 256 + j.val; omega)
theorem row512_apply (b : S512.Idx → EReal) (j : Fin 512) : shapeCast S1x512 b shapeCasts_S512_S1x512 (ix2 (0 : Fin 1) j) = b (ix1 j) :=
  shapeCast_apply b shapeCasts_S512_S1x512 (ix2 (0 : Fin 1) j) (ix1 j)
    (by rewrite [Shape.rowMajor_val_one, Shape.rowMajor_val_two]; show j.val = 0 * 512 + j.val; omega)
theorem row10_apply (b : S10.Idx → EReal) (j : Fin 10) : shapeCast S1x10 b shapeCasts_S10_S1x10 (ix2 (0 : Fin 1) j) = b (ix1 j) :=
  shapeCast_apply b shapeCasts_S10_S1x10 (ix2 (0 : Fin 1) j) (ix1 j)
    (by rewrite [Shape.rowMajor_val_one, Shape.rowMajor_val_two]; show j.val = 0 * 10 + j.val; omega)

end Cert.KernelIdeal.Arrays

end
-- ==== Proof.ResultArray.lean ====
/-
  The kernel's result array as one function of the seven argument arrays.

  `G` at (row, o) is the network on that row of the input, with the folded first-layer weights.  The grid has 32 points;
  point `t` stages rows `512 t … 512 t + 511` of the input and of the output and the whole of every weight and bias
  array, so what it writes back is rows `512 t …` of `G` (each output row depends on its own input row only), and the
  32 blocks tile the 16384 rows: row `i` is in the block of point `i / 512`.
-/
import proofs.«152249_j14396730376550_1_alg».proof.Proof.Gen.KernelIdeal.Value
import proofs.«152249_j14396730376550_1_alg».proof.Proof.KernelRow
import proofs.«152249_j14396730376550_1_alg».proof.Proof.RegionArrays

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.HaarMlp Cert.KernelIdeal.Arrays

/-- THE RESULT: entry (row, o) is the network on that input row, the first layer through the folded weights. -/
def G (x : FVec Ideal S16384x4096 .f32) (W₁ : FVec Ideal S4096x256 .f32) (b₁ : FVec Ideal S256 .f32)
    (W₂ : FVec Ideal S256x512 .f32) (b₂ : FVec Ideal S512 .f32) (W₃ : FVec Ideal S512x10 .f32) (b₃ : FVec Ideal S10 .f32) :
    FVec Ideal S16384x10 .f32 :=
  fun i => mlp (fun k => x (ix2 (i 0) k)) (fun k j => folded W₁ (ix2 k j)) (fun j => b₁ (ix1 j))
    (fun k j => W₂ (ix2 k j)) (fun j => b₂ (ix1 j)) (fun k j => W₃ (ix2 k j)) (fun j => b₃ (ix1 j)) (i 1)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the input and the output move one block of rows per point, every other
    window stays at its one block. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `r` of point `t`'s block is row `512 t + r` of the array. -/
def rowAt (t : Fin cfg0.N) (r : Fin 512) : Fin 16384 :=
  ⟨t.val * 512 + r.val, by have h : t.val < 32 := N_0 ▸ t.isLt; have := r.isLt; omega⟩

/-! ## Each window's block at a point, as entries of the argument arrays -/

theorem x_read (c : Dev nD) (t : Fin cfg0.N) (r : Fin 512) (k : Fin 4096) :
    (iblk m c 0 t : Vec Ideal S512x4096 .f32) (ix2 r k) = (m ((c : Thread nD τ).loc main_arg0) : S16384x4096.Idx → EReal) (ix2 (rowAt t r) k) := by
  obtain ⟨e0, e1, -⟩ := idx_facts t
  unfold iblk
  rw [View.read_apply]
  show V m c main_arg0 _ = _
  refine (congrFun (V_main_arg0 m c) _).trans ?_
  refine congrArg (m ((c : Thread nD τ).loc main_arg0) : S16384x4096.Idx → EReal) (funext fun a => Fin.ext ?_)
  match a with
  | ⟨0, _⟩ => show win0_0.index t (0 : Fin 2) * 512 + 1 * r.val = t.val * 512 + r.val; rw [e0]; omega
  | ⟨1, _⟩ => show win0_0.index t (1 : Fin 2) * 4096 + 1 * k.val = k.val; rw [e1]; omega

theorem w1_read (c : Dev nD) (t : Fin cfg0.N) (k : Fin 4096) (j : Fin 256) :
    (iblk m c 1 t : Vec Ideal S4096x256 .bf16) (ix2 k j) = folded (m ((c : Thread nD τ).loc main_arg1)) (ix2 k j) := by
  obtain ⟨-, -, -, -, e0, e1, -⟩ := idx_facts t
  unfold iblk
  rw [View.read_apply]
  show V m c main_v12 _ = _
  refine (congrFun (V_folded m c) _).trans ?_
  refine congrArg (folded (m ((c : Thread nD τ).loc main_arg1))) (funext fun a => Fin.ext ?_)
  match a with
  | ⟨0, _⟩ => show win0_1.index t (0 : Fin 2) * 4096 + 1 * k.val = k.val; rw [e0]; omega
  | ⟨1, _⟩ => show win0_1.index t (1 : Fin 2) * 256 + 1 * j.val = j.val; rw [e1]; omega

theorem w2_read (c : Dev nD) (t : Fin cfg0.N) (k : Fin 256) (j : Fin 512) :
    (iblk m c 2 t : Vec Ideal S256x512 .bf16) (ix2 k j) = (m ((c : Thread nD τ).loc main_arg3) : S256x512.Idx → EReal) (ix2 k j) := by
  obtain ⟨-, -, -, -, -, -, e0, e1, -⟩ := idx_facts t
  unfold iblk
  rw [View.read_apply]
  show V m c main_v13 _ = _
  refine (congrFun (V_w2 m c) _).trans ?_
  refine congrArg (m ((c : Thread nD τ).loc main_arg3) : S256x512.Idx → EReal) (funext fun a => Fin.ext ?_)
  match a with
  | ⟨0, _⟩ => show win0_2.index t (0 : Fin 2) * 256 + 1 * k.val = k.val; rw [e0]; omega
  | ⟨1, _⟩ => show win0_2.index t (1 : Fin 2) * 512 + 1 * j.val = j.val; rw [e1]; omega

theorem w3_read (c : Dev nD) (t : Fin cfg0.N) (k : Fin 512) (j : Fin 10) :
    (iblk m c 3 t : Vec Ideal S512x10 .bf16) (ix2 k j) = (m ((c : Thread nD τ).loc main_arg5) : S512x10.Idx → EReal) (ix2 k j) := by
  obtain ⟨-, -, -, -, -, -, -, -, e0, e1, -⟩ := idx_facts t
  unfold iblk
  rw [View.read_apply]
  show V m c main_v14 _ = _
  refine (congrFun (V_w3 m c) _).trans ?_
  refine congrArg (m ((c : Thread nD τ).loc main_arg5) : S512x10.Idx → EReal) (funext fun a => Fin.ext ?_)
  match a with
  | ⟨0, _⟩ => show win0_3.index t (0 : Fin 2) * 512 + 1 * k.val = k.val; rw [e0]; omega
  | ⟨1, _⟩ => show win0_3.index t (1 : Fin 2) * 10 + 1 * j.val = j.val; rw [e1]; omega

theorem b1_read (c : Dev nD) (t : Fin cfg0.N) (j : Fin 256) :
    (iblk m c 4 t : Vec Ideal S1x256 .f32) (ix2 (0 : Fin 1) j) = (m ((c : Thread nD τ).loc main_arg2) : S256.Idx → EReal) (ix1 j) := by
  obtain ⟨-, -, -, -, -, -, -, -, -, -, e0, e1, -⟩ := idx_facts t
  unfold iblk
  rw [View.read_apply]
  show V m c main_v15 _ = _
  refine (congrFun (V_b1 m c) _).trans ?_
  refine Eq.trans (congrArg (shapeCast S1x256 (m ((c : Thread nD τ).loc main_arg2) : S256.Idx → EReal) shapeCasts_S256_S1x256) (funext fun a => Fin.ext ?_)) (row256_apply _ j)
  match a with
  | ⟨0, _⟩ => show win0_4.index t (0 : Fin 2) * 1 + 1 * 0 = 0; rw [e0]
  | ⟨1, _⟩ => show win0_4.index t (1 : Fin 2) * 256 + 1 * j.val = j.val; rw [e1]; omega

theorem b2_read (c : Dev nD) (t : Fin cfg0.N) (j : Fin 512) :
    (iblk m c 5 t : Vec Ideal S1x512 .f32) (ix2 (0 : Fin 1) j) = (m ((c : Thread nD τ).loc main_arg4) : S512.Idx → EReal) (ix1 j) := by
  obtain ⟨-, -, -, -, -, -, -, -, -, -, -, -, e0, e1, -⟩ := idx_facts t
  unfold iblk
  rw [View.read_apply]
  show V m c main_v16 _ = _
  refine (congrFun (V_b2 m c) _).trans ?_
  refine Eq.trans (congrArg (shapeCast S1x512 (m ((c : Thread nD τ).loc main_arg4) : S512.Idx → EReal) shapeCasts_S512_S1x512) (funext fun a => Fin.ext ?_)) (row512_apply _ j)
  match a with
  | ⟨0, _⟩ => show win0_5.index t (0 : Fin 2) * 1 + 1 * 0 = 0; rw [e0]
  | ⟨1, _⟩ => show win0_5.index t (1 : Fin 2) * 512 + 1 * j.val = j.val; rw [e1]; omega

theorem b3_read (c : Dev nD) (t : Fin cfg0.N) (j : Fin 10) :
    (iblk m c 6 t : Vec Ideal S1x10 .f32) (ix2 (0 : Fin 1) j) = (m ((c : Thread nD τ).loc main_arg6) : S10.Idx → EReal) (ix1 j) := by
  obtain ⟨-, -, -, -, -, -, -, -, -, -, -, -, -, -, e0, e1⟩ := idx_facts t
  unfold iblk
  rw [View.read_apply]
  show V m c main_v17 _ = _
  refine (congrFun (V_b3 m c) _).trans ?_
  refine Eq.trans (congrArg (shapeCast S1x10 (m ((c : Thread nD τ).loc main_arg6) : S10.Idx → EReal) shapeCasts_S10_S1x10) (funext fun a => Fin.ext ?_)) (row10_apply _ j)
  match a with
  | ⟨0, _⟩ => show win0_6.index t (0 : Fin 2) * 1 + 1 * 0 = 0; rw [e0]
  | ⟨1, _⟩ => show win0_6.index t (1 : Fin 2) * 10 + 1 * j.val = j.val; rw [e1]; omega

/-- Entry (r, o) of the output's block at point `t` is entry (512 t + r, o) of the array. -/
theorem out_emb (t : Fin cfg0.N) (r : Fin 512) (o : Fin 10) :
    ((cfg0.win 7).blk t).view.emb (ix2 r o) = (ix2 (rowAt t r) o : S16384x10.Idx) := by
  obtain ⟨-, -, e0, e1, -⟩ := idx_facts t
  funext a
  apply Fin.ext
  match a with
  | ⟨0, _⟩ => show win0_7.index t (0 : Fin 2) * 512 + 1 * r.val = t.val * 512 + r.val; rw [e0]; omega
  | ⟨1, _⟩ => show win0_7.index t (1 : Fin 2) * 10 + 1 * o.val = o.val; rw [e1]; omega

/-! ## What a point writes back, the cover, the array -/

/-- WHAT POINT `t` WRITES BACK is block `t` of `G` of the argument arrays. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed7]
  unfold out0_7
  rw [View.canon_unit_zero hz]
  simp only [View.ld_unit_zero (S := S512x4096) hz, View.ld_unit_zero (S := S4096x256) hz, View.ld_unit_zero (S := S1x256) hz,
    View.ld_unit_zero (S := S256x512) hz, View.ld_unit_zero (S := S1x512) hz, View.ld_unit_zero (S := S512x10) hz,
    View.ld_unit_zero (S := S1x10) hz]
  funext y
  obtain ⟨r, o, rfl⟩ : ∃ (r : Fin 512) (o : Fin 10), y = ix2 r o := ⟨y 0, y 1, eq_ix2 y⟩
  show k0_pay1 (F := Ideal) (iblk m c 0 t) (iblk m c 1 t) (iblk m c 4 t) (iblk m c 2 t) (iblk m c 5 t) (iblk m c 3 t) (iblk m c 6 t) (ix2 r o)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 r o))
  rw [out_emb t r o]
  refine (Cert.KernelIdeal.Row.pay_apply (iblk m c 0 t) (iblk m c 1 t) (iblk m c 4 t) (iblk m c 2 t) (iblk m c 5 t) (iblk m c 3 t) (iblk m c 6 t) r o).trans ?_
  show _ = mlp _ _ _ _ _ _ _ o
  simp only [x_read, w1_read, w2_read, w3_read, b1_read, b2_read, b3_read]

/-- An index of the array is in point `t`'s block iff each coordinate is in the block's range on its axis. -/
theorem mem_blk (t : Fin cfg0.N) (i : S16384x10.Idx) :
    i ∈ ((cfg0.win 7).blk t).view.set ↔ ∀ a : Fin 2, win0_7.index t a * S512x10.size a ≤ (i a).val ∧ (i a).val < win0_7.index t a * S512x10.size a + S512x10.size a := by
  show i ∈ ((View.whole main_v18).slice (win0_7.rect t)).set ↔ _
  rw [View.set_slice_whole, Rect.mem_set_unit]
  exact Iff.rfl

/-- Every index of the array is in some point's block: row `i` in the block of point `i / 512`. -/
theorem cover (i : S16384x10.Idx) : ∃ t : Fin cfg0.N, (cfg0.win 7).flush t = true ∧ i ∈ ((cfg0.win 7).blk t).view.set := by
  have h0 : (i 0).val < 16384 := (i 0).isLt
  have h1 : (i 1).val < 10 := (i 1).isLt
  let t : Fin cfg0.N := ⟨(i 0).val / 512, by rw [show cfg0.N = 32 from N_0]; omega⟩
  obtain ⟨-, -, e0, e1, -⟩ := idx_facts t
  refine ⟨t, flush0_7 t, ?_⟩
  rw [mem_blk]
  intro a
  match a with
  | ⟨0, _⟩ =>
    show win0_7.index t (0 : Fin 2) * 512 ≤ (i 0).val ∧ (i 0).val < win0_7.index t (0 : Fin 2) * 512 + 512
    rw [e0]; show (i 0).val / 512 * 512 ≤ (i 0).val ∧ (i 0).val < (i 0).val / 512 * 512 + 512; omega
  | ⟨1, _⟩ =>
    show win0_7.index t (1 : Fin 2) * 10 ≤ (i 1).val ∧ (i 1).val < win0_7.index t (1 : Fin 2) * 10 + 10
    rw [e1]; omega

/-- THE ARRAY after the run is `G` of the argument arrays. -/
theorem final (c : Dev nD) : (dats m 0 c).arrAt 7 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v18) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference's result, stage by stage, is the same function `G` of the arguments.

  The reference views each input row as 2048 pairs, takes the scaled sum of each pair into the lower half of a new row
  and the scaled difference into the upper half, and feeds that row to the three layers with the weights as given.
  Its second and third layers are, entry by entry, the kernel's.  Its first layer is the transformed row against the
  plain weights, which the folding law turns into the plain row against the folded weights — here, and only here, the
  input entries and the first-layer weights have to be real numbers.
-/
import proofs.«152249_j14396730376550_1_alg».proof.Proof.Gen.ReferenceIdeal.Read
import proofs.«152249_j14396730376550_1_alg».proof.Proof.ResultArray

noncomputable section

namespace Cert.ReferenceIdeal.RefValue

open Cert.ReferenceIdeal Cert.ReferenceIdeal.Gen Cert.ReferenceIdeal.Read Idealize.ShloMosaic Idealize.ShloMosaic.ValueIdx Cert.HaarMlp

/-! ## A row's pairs -/

/-- The first entry of pair `p` of row `r` is the row's entry `2p`. -/
theorem pair_fst (x0 : (⟨S16384x4096, .f32⟩ : BufTy).Contents (Elt Ideal)) (r : Fin 16384) (p : Fin 2048) :
    val_main_v2 (F := Ideal) x0 (ix2 r p) = x0 (ix2 r (evn p)) := by
  have hr := r.isLt
  have hp := p.isLt
  rw [val_main_v2_apply, val_main_v1_apply, val_main_v0_apply]
  refine congrArg x0 (funext fun a => Fin.ext ?_)
  match a with
  | ⟨0, _⟩ =>
    show (((r.val * 2048 + p.val) / 2048 * 2048 + (r.val * 2048 + p.val) / 1 % 2048) * 2 + 0) / 4096 = r.val
    omega
  | ⟨1, _⟩ =>
    show (((r.val * 2048 + p.val) / 2048 * 2048 + (r.val * 2048 + p.val) / 1 % 2048) * 2 + 0) % 4096 = 2 * p.val
    omega

/-- The second entry of pair `p` of row `r` is the row's entry `2p + 1`. -/
theorem pair_snd (x0 : (⟨S16384x4096, .f32⟩ : BufTy).Contents (Elt Ideal)) (r : Fin 16384) (p : Fin 2048) :
    val_main_v4 (F := Ideal) x0 (ix2 r p) = x0 (ix2 r (odd p)) := by
  have hr := r.isLt
  have hp := p.isLt
  rw [val_main_v4_apply, val_main_v3_apply, val_main_v0_apply]
  refine congrArg x0 (funext fun a => Fin.ext ?_)
  match a with
  | ⟨0, _⟩ =>
    show (((r.val * 2048 + p.val) / 2048 * 2048 + (r.val * 2048 + p.val) / 1 % 2048) * 2 + (1 + 0)) / 4096 = r.val
    omega
  | ⟨1, _⟩ =>
    show (((r.val * 2048 + p.val) / 2048 * 2048 + (r.val * 2048 + p.val) / 1 % 2048) * 2 + (1 + 0)) % 4096 = 2 * p.val + 1
    omega

/-- The same two facts for the copies the difference branch reads. -/
theorem pair_fst' (x0 : (⟨S16384x4096, .f32⟩ : BufTy).Contents (Elt Ideal)) (r : Fin 16384) (p : Fin 2048) :
    val_main_v9 (F := Ideal) x0 (ix2 r p) = x0 (ix2 r (evn p)) := by
  have hr := r.isLt
  have hp := p.isLt
  rw [val_main_v9_apply, val_main_v8_apply, val_main_v0_apply]
  refine congrArg x0 (funext fun a => Fin.ext ?_)
  match a with
  | ⟨0, _⟩ =>
    show (((r.val * 2048 + p.val) / 2048 * 2048 + (r.val * 2048 + p.val) / 1 % 2048) * 2 + 0) / 4096 = r.val
    omega
  | ⟨1, _⟩ =>
    show (((r.val * 2048 + p.val) / 2048 * 2048 + (r.val * 2048 + p.val) / 1 % 2048) * 2 + 0) % 4096 = 2 * p.val
    omega

/-- (second entry) -/
theorem pair_snd' (x0 : (⟨S16384x4096, .f32⟩ : BufTy).Contents (Elt Ideal)) (r : Fin 16384) (p : Fin 2048) :
    val_main_v11 (F := Ideal) x0 (ix2 r p) = x0 (ix2 r (odd p)) := by
  have hr := r.isLt
  have hp := p.isLt
  rw [val_main_v11_apply, val_main_v10_apply, val_main_v0_apply]
  refine congrArg x0 (funext fun a => Fin.ext ?_)
  match a with
  | ⟨0, _⟩ =>
    show (((r.val * 2048 + p.val) / 2048 * 2048 + (r.val * 2048 + p.val) / 1 % 2048) * 2 + (1 + 0)) / 4096 = r.val
    omega
  | ⟨1, _⟩ =>
    show (((r.val * 2048 + p.val) / 2048 * 2048 + (r.val * 2048 + p.val) / 1 % 2048) * 2 + (1 + 0)) % 4096 = 2 * p.val + 1
    omega

/-! ## The transformed row -/

/-- Lower half of the transformed row: the scaled sums of the pairs. -/
theorem haar_lo (x0 : (⟨S16384x4096, .f32⟩ : BufTy).Contents (Elt Ideal)) (r : Fin 16384) (p : Fin 2048) :
    val_main_v15 (F := Ideal) x0 (ix2 r (lo p)) = (x0 (ix2 r (evn p)) + x0 (ix2 r (odd p))) * coef := by
  unfold val_main_v15
  rw [concatenate_pair_apply_left (t := S16384x4096) (s₁ := S16384x2048) (s₂ := S16384x2048) (1 : Fin 2) _ _
    concatenates_S16384x2048_S16384x2048_S16384x4096_d1 (ix2 r (lo p)) rfl (ix2 r p) (fun b => match b with
      | ⟨0, _⟩ => rfl
      | ⟨1, _⟩ => rfl)]
  rw [val_main_v7_apply, val_main_v5_apply, val_main_v6_apply, val_main_cst_apply, pair_fst, pair_snd]
  rfl

/-- Upper half of the transformed row: the scaled differences of the pairs. -/
theorem haar_hi (x0 : (⟨S16384x4096, .f32⟩ : BufTy).Contents (Elt Ideal)) (r : Fin 16384) (p : Fin 2048) :
    val_main_v15 (F := Ideal) x0 (ix2 r (hi p)) = (x0 (ix2 r (evn p)) - x0 (ix2 r (odd p))) * coef := by
  unfold val_main_v15
  rw [concatenate_pair_apply_right (t := S16384x4096) (s₁ := S16384x2048) (s₂ := S16384x2048) (1 : Fin 2) _ _
    concatenates_S16384x2048_S16384x2048_S16384x4096_d1 (ix2 r (hi p)) rfl rfl (ix2 r p) (fun b hb => match b, hb with
      | ⟨0, _⟩, _ => rfl
      | ⟨1, _⟩, hb => absurd rfl hb) (by show p.val + 2048 = 2048 + p.val; omega)]
  rw [val_main_v14_apply, val_main_v12_apply, val_main_v13_apply, val_main_cst_0_apply, pair_fst', pair_snd']
  rfl

/-! ## The three layers at a row -/

theorem layer1 (x0 : (⟨S16384x4096, .f32⟩ : BufTy).Contents (Elt Ideal)) (x1 : (⟨S4096x256, .f32⟩ : BufTy).Contents (Elt Ideal)) (x2 : (⟨S256, .f32⟩ : BufTy).Contents (Elt Ideal)) (r : Fin 16384) (j : Fin 256) :
    val_main_v20 (F := Ideal) x0 x1 x2 (ix2 r j)
      = relu (dense (fun k => val_main_v15 (F := Ideal) x0 (ix2 r k)) (fun k j => x1 (ix2 k j)) (fun j => x2 (ix1 j))) j := by
  have el : ∀ k : Fin 4096, lidx_main_v16 (ix2 r j) k = ix2 r k := fun k => funext fun a => Fin.ext (by
    match a with | ⟨0, _⟩ => rfl | ⟨1, _⟩ => rfl)
  have er : ∀ k : Fin 4096, ridx_main_v16 (ix2 r j) k = ix2 k j := fun k => funext fun a => Fin.ext (by
    match a with | ⟨0, _⟩ => rfl | ⟨1, _⟩ => rfl)
  have eb : idx_main_v17 (idx_main_v18 (ix2 r j)) = ix1 j := funext fun a => Fin.ext (by
    match a with | ⟨0, _⟩ => rfl)
  rw [val_main_v20_apply, val_main_call0_v0_apply, val_main_call0_cst_apply, val_main_v19_apply, val_main_v16_apply,
    val_main_v18_apply, val_main_v17_apply, eb]
  simp only [el, er]
  show max (_ + _) (Ideal.ofBits .f32 0x00000000#32) = _
  rw [Ideal.ofBits_zero_f32]
  rfl

theorem layer2 (x0 : (⟨S16384x4096, .f32⟩ : BufTy).Contents (Elt Ideal)) (x1 : (⟨S4096x256, .f32⟩ : BufTy).Contents (Elt Ideal)) (x2 : (⟨S256, .f32⟩ : BufTy).Contents (Elt Ideal)) (x3 : (⟨S256x512, .f32⟩ : BufTy).Contents (Elt Ideal)) (x4 : (⟨S512, .f32⟩ : BufTy).Contents (Elt Ideal)) (r : Fin 16384) (j : Fin 512) :
    val_main_v25 (F := Ideal) x0 x1 x2 x3 x4 (ix2 r j)
      = relu (dense (fun k => val_main_v20 (F := Ideal) x0 x1 x2 (ix2 r k)) (fun k j => x3 (ix2 k j)) (fun j => x4 (ix1 j))) j := by
  have el : ∀ k : Fin 256, lidx_main_v21 (ix2 r j) k = ix2 r k := fun k => funext fun a => Fin.ext (by
    match a with | ⟨0, _⟩ => rfl | ⟨1, _⟩ => rfl)
  have er : ∀ k : Fin 256, ridx_main_v21 (ix2 r j) k = ix2 k j := fun k => funext fun a => Fin.ext (by
    match a with | ⟨0, _⟩ => rfl | ⟨1, _⟩ => rfl)
  have eb : idx_main_v22 (idx_main_v23 (ix2 r j)) = ix1 j := funext fun a => Fin.ext (by
    match a with | ⟨0, _⟩ => rfl)
  rw [val_main_v25_apply, val_main_call1_v0_apply, val_main_call1_cst_apply, val_main_v24_apply, val_main_v21_apply,
    val_main_v23_apply, val_main_v22_apply, eb]
  simp only [el, er]
  show max (_ + _) (Ideal.ofBits .f32 0x00000000#32) = _
  rw [Ideal.ofBits_zero_f32]
  rfl

theorem layer3 (x0 : (⟨S16384x4096, .f32⟩ : BufTy).Contents (Elt Ideal)) (x1 : (⟨S4096x256, .f32⟩ : BufTy).Contents (Elt Ideal)) (x2 : (⟨S256, .f32⟩ : BufTy).Contents (Elt Ideal)) (x3 : (⟨S256x512, .f32⟩ : BufTy).Contents (Elt Ideal)) (x4 : (⟨S512, .f32⟩ : BufTy).Contents (Elt Ideal)) (x5 : (⟨S512x10, .f32⟩ : BufTy).Contents (Elt Ideal)) (x6 : (⟨S10, .f32⟩ : BufTy).Contents (Elt Ideal)) (r : Fin 16384) (o : Fin 10) :
    val_main_v29 (F := Ideal) x0 x1 x2 x3 x4 x5 x6 (ix2 r o)
      = dense (fun k => val_main_v25 (F := Ideal) x0 x1 x2 x3 x4 (ix2 r k)) (fun k j => x5 (ix2 k j)) (fun j => x6 (ix1 j)) o := by
  have el : ∀ k : Fin 512, lidx_main_v26 (ix2 r o) k = ix2 r k := fun k => funext fun a => Fin.ext (by
    match a with | ⟨0, _⟩ => rfl | ⟨1, _⟩ => rfl)
  have er : ∀ k : Fin 512, ridx_main_v26 (ix2 r o) k = ix2 k o := fun k => funext fun a => Fin.ext (by
    match a with | ⟨0, _⟩ => rfl | ⟨1, _⟩ => rfl)
  have eb : idx_main_v27 (idx_main_v28 (ix2 r o)) = ix1 o := funext fun a => Fin.ext (by
    match a with | ⟨0, _⟩ => rfl)
  rw [val_main_v29_apply, val_main_v26_apply, val_main_v28_apply, val_main_v27_apply, eb]
  simp only [el, er]
  rfl

/-! ## The reference is `G` -/

/-- THE REFERENCE'S RESULT is `G` of the arguments, when the input and the first-layer weights are real numbers. -/
theorem ref_eq (x0 : (⟨S16384x4096, .f32⟩ : BufTy).Contents (Elt Ideal)) (x1 : (⟨S4096x256, .f32⟩ : BufTy).Contents (Elt Ideal)) (x2 : (⟨S256, .f32⟩ : BufTy).Contents (Elt Ideal)) (x3 : (⟨S256x512, .f32⟩ : BufTy).Contents (Elt Ideal)) (x4 : (⟨S512, .f32⟩ : BufTy).Contents (Elt Ideal)) (x5 : (⟨S512x10, .f32⟩ : BufTy).Contents (Elt Ideal)) (x6 : (⟨S10, .f32⟩ : BufTy).Contents (Elt Ideal))
    (hx : ∀ i, ∃ r : ℝ, x0 i = r) (hW : ∀ i, ∃ r : ℝ, x1 i = r) :
    val_main_v29 (F := Ideal) x0 x1 x2 x3 x4 x5 x6 = Cert.KernelIdeal.Whole.G x0 x1 x2 x3 x4 x5 x6 := by
  funext i
  obtain ⟨r, o, rfl⟩ : ∃ (r : Fin 16384) (o : Fin 10), i = ix2 r o := ⟨i 0, i 1, eq_ix2 i⟩
  have key : dense (fun k => val_main_v15 (F := Ideal) x0 (ix2 r k)) (fun k j => x1 (ix2 k j)) (fun j => x2 (ix1 j))
      = dense (fun k => x0 (ix2 r k)) (fun k j => Cert.KernelIdeal.Arrays.folded x1 (ix2 k j)) (fun j => x2 (ix1 j)) :=
    dense_haar (fun k => x0 (ix2 r k)) (fun k => val_main_v15 (F := Ideal) x0 (ix2 r k)) (fun k j => x1 (ix2 k j))
      (fun k j => Cert.KernelIdeal.Arrays.folded x1 (ix2 k j)) (fun j => x2 (ix1 j)) coef
      (fun k => hx _) (fun k j => hW _) coef_real (fun p => haar_lo x0 r p) (fun p => haar_hi x0 r p)
      (fun p j => Cert.KernelIdeal.Arrays.folded_evn x1 p j) (fun p j => Cert.KernelIdeal.Arrays.folded_odd x1 p j)
  rw [layer3]
  simp only [layer2, layer1]
  rw [key]
  rfl

end Cert.ReferenceIdeal.RefValue

end
-- ==== Proof.lean ====
/-
  A three-layer network on Haar-transformed rows, computed two ways.

  The reference transforms each input row (scaled sums of adjacent pairs, then scaled differences) and applies
  4096 → 256 → 512 → 10 dense layers with rectifiers after the first two.  The kernel never transforms the rows: the
  transform is linear, so it is folded once into the first-layer weights (row `2p` of the folded weights is the scaled
  sum of rows `p` and `2048 + p` of the weights, row `2p + 1` their scaled difference), and blocks of 512 rows go
  through the three layers directly.

  On the extended reals both results are one function `G` of the seven arguments (Proof/ResultArray.lean).  The
  kernel's 32 blocks are rows of `G` and tile the array; the reference's stages read, entry by entry, as the same
  layers with its first layer in transformed form, and the folding law (Proof/HaarFold.lean) identifies the two first
  layers by regrouping a sum of 4096 terms by halves and by parity and distributing — a step that needs the input and
  the first-layer weights to be real numbers, which is what the precondition gives (Proof/InputsReal.lean).  Changes of
  float format are the identity here and the kernel's idealization rewrote nothing.
-/
import proofs.«152249_j14396730376550_1_alg».proof.Defs
import proofs.«152249_j14396730376550_1_alg».proof.Proof.Gen.Kernel
import proofs.«152249_j14396730376550_1_alg».proof.Proof.Gen.Kernel.Skeleton
import proofs.«152249_j14396730376550_1_alg».proof.Proof.Gen.Kernel.Launch
import proofs.«152249_j14396730376550_1_alg».proof.Proof.Gen.Kernel.Points
import proofs.«152249_j14396730376550_1_alg».proof.Proof.Gen.Kernel.Frame
import proofs.«152249_j14396730376550_1_alg».proof.Proof.Gen.KernelIdeal
import proofs.«152249_j14396730376550_1_alg».proof.Proof.Gen.KernelIdeal.Skeleton
import proofs.«152249_j14396730376550_1_alg».proof.Proof.Gen.KernelIdeal.Launch
import proofs.«152249_j14396730376550_1_alg».proof.Proof.Gen.KernelIdeal.Points
import proofs.«152249_j14396730376550_1_alg».proof.Proof.Gen.KernelIdeal.Frame
import proofs.«152249_j14396730376550_1_alg».proof.Proof.Gen.ReferenceIdeal
import proofs.«152249_j14396730376550_1_alg».proof.Proof.Gen.Pre_finite_inputs
import proofs.«152249_j14396730376550_1_alg».proof.Proof.Gen.KernelIdeal.Value
import proofs.«152249_j14396730376550_1_alg».proof.Proof.Gen.ReferenceIdeal.Run
import proofs.«152249_j14396730376550_1_alg».proof.Proof.Gen.ReferenceIdeal.Read
import proofs.«152249_j14396730376550_1_alg».proof.Proof.InputsReal
import proofs.«152249_j14396730376550_1_alg».proof.Proof.ResultArray
import proofs.«152249_j14396730376550_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the result array at `G` of the arguments: the
    kernel by its blocks, the reference by its stages and the folding law under the precondition's finiteness. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW⟩ := Cert.Pre_finite_inputs.Reals.reals _ _ _ _ _ _ _ (hpre c)
  obtain ⟨a0, a1, a2, a3, a4, a5, a6⟩ := hagree c
  rw [Cert.ReferenceIdeal.Read.val_main_v29_eq, a0, a1, a2, a3, a4, a5, a6]
  exact Cert.ReferenceIdeal.RefValue.ref_eq _ _ _ _ _ _ _ hx hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
